-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel

variable [Facts]

def fn {F : FTy → Type} [FloatOps F] (main_arg0 : FVec F S256x3x224x224 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  main_v3
-- ==== Kernel.lean ====
abbrev S256x3x224x224 : Shape := ⟨4, ![256, 3, 224, 224]⟩
abbrev S3x224x224x256 : Shape := ⟨4, ![3, 224, 224, 256]⟩
abbrev S150528x256 : Shape := ⟨2, ![150528, 256]⟩
abbrev S150528x128 : Shape := ⟨2, ![150528, 128]⟩
abbrev S7168x256 : Shape := ⟨2, ![7168, 256]⟩
abbrev S7168x128 : Shape := ⟨2, ![7168, 128]⟩
abbrev S256x128 : Shape := ⟨2, ![256, 128]⟩
abbrev S3x224x224x128 : Shape := ⟨4, ![3, 224, 224, 128]⟩
abbrev S128x3x224x224 : Shape := ⟨4, ![128, 3, 224, 224]⟩

abbrev nBuf : Space → Nat
  | .hbm => 6
  | .vmem => 4
  | .smem => 0
  | _ => 0

abbrev bufTy : (tb : Table) → Fin (tcTables nBuf tb) → BufTy
  | .hbm, ⟨0, _⟩ => ⟨S256x3x224x224, .f32⟩
  | .hbm, ⟨1, _⟩ => ⟨S3x224x224x256, .f32⟩
  | .hbm, ⟨2, _⟩ => ⟨S150528x256, .f32⟩
  | .hbm, ⟨3, _⟩ => ⟨S150528x128, .f32⟩
  | .hbm, ⟨4, _⟩ => ⟨S3x224x224x128, .f32⟩
  | .hbm, ⟨5, _⟩ => ⟨S128x3x224x224, .f32⟩
  | .local _ .vmem, ⟨0, _⟩ => ⟨S7168x256, .f32⟩
  | .local _ .vmem, ⟨1, _⟩ => ⟨S7168x256, .f32⟩
  | .local _ .vmem, ⟨2, _⟩ => ⟨S7168x128, .f32⟩
  | .local _ .vmem, ⟨3, _⟩ => ⟨S7168x128, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7168x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7168x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S256x3x224x224_S3x224x224x256_1_2_3_0 : S256x3x224x224.Transposes [1, 2, 3, 0] S3x224x224x256
  shapeCasts_S3x224x224x256_S150528x256 : S3x224x224x256.ShapeCasts S150528x256
  iota_S256x128_d0_w32 : S256x128.Iotas .tc 32 [0]
  iota_S256x128_d1_w32 : S256x128.Iotas .tc 32 [1]
  natLt_1_32 : 1 < 32
  inb_S7168x256_S7168x256_0_0 : ∀ a, (![0, 0] : Fin 2 → Nat) a + S7168x256.size a ≤ S7168x256.size a
  h_S7168x256 : 0 < S7168x256.numel
  shapeCasts_S7168x256_S7168x256 : S7168x256.ShapeCasts S7168x256
  inb_S7168x128_S7168x128_0_0 : ∀ a, (![0, 0] : Fin 2 → Nat) a + S7168x128.size a ≤ S7168x128.size a
  h_S7168x128 : 0 < S7168x128.numel
  shapeCasts_S150528x128_S3x224x224x128 : S150528x128.ShapeCasts S3x224x224x128
  transposes_S3x224x224x128_S128x3x224x224_3_0_1_2 : S3x224x224x128.Transposes [3, 0, 1, 2] S128x3x224x224
  dot_S7168x256_S256x128_S7168x128_1_0_0_1_n_n_wf : DotDims.WF S7168x256 S256x128 S7168x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7168x256.size a ≤ S150528x256.size a
  hwx0_0 : ∀ i : grid0.Coords, EltTy.bits .f32 = 32 ∨ (Rect.block (s := S150528x256) S7168x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7168x128.size a ≤ S150528x128.size a
  hwx0_1 : ∀ i : grid0.Coords, EltTy.bits .f32 = 32 ∨ (Rect.block (s := S150528x128) S7168x128.size (cc0_transform_1 i) (hinb0_1 i)).WholeWords (EltTy.packing .f32)

variable [Facts₀]

def dot_S7168x256_S256x128_S7168x128_1_0_0_1_n_n : DotDims S7168x256 S256x128 S7168x128 where
  lhsContracting := [1]
  rhsContracting := [0]
  lhsNonContracting := [0]
  rhsNonContracting := [1]
  lhsBatch := []
  rhsBatch := []
  wf := dot_S7168x256_S256x128_S7168x128_1_0_0_1_n_n_wf

abbrev win0_0 : Pipeline.Window sig grid0 :=
  Pipeline.Window.ofSpec (Memref.whole main_v1) S7168x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S7168x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S128x3x224x224 : Shape := ⟨4, ![128, 3, 224, 224]⟩

abbrev nBuf : Space → Nat
  | .hbm => 46
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S128, .i32⟩
  | .hbm, ⟨2, _⟩ => ⟨S_, .i32⟩
  | .hbm, ⟨3, _⟩ => ⟨S128, .i32⟩
  | .hbm, ⟨4, _⟩ => ⟨S128, .i32⟩
  | .hbm, ⟨5, _⟩ => ⟨S_, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S128, .i32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S128, .i1⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S1, .i32⟩
  | .hbm, ⟨32, _⟩ => ⟨S_, .i32⟩
  | .hbm, ⟨33, _⟩ => ⟨S128x1, .i32⟩
  | .hbm, ⟨34, _⟩ => ⟨S128x1, .i1⟩
  | .hbm, ⟨35, _⟩ => ⟨S1x1, .i32⟩
  | .hbm, ⟨36, _⟩ => ⟨S128x1, .i32⟩
  | .hbm, ⟨37, _⟩ => ⟨S128x1, .i1⟩
  | .hbm, ⟨38, _⟩ => ⟨S128x1, .i1⟩
  | .hbm, ⟨39, _⟩ => ⟨S_, .i1⟩
  | .hbm, ⟨40, _⟩ => ⟨S128, .i1⟩
  | .hbm, ⟨41, _⟩ => ⟨S128x3x224x224, .f32⟩
  | .hbm, ⟨42, _⟩ => ⟨S128x3x224x224, .i1⟩
  | .hbm, ⟨43, _⟩ => ⟨S_, .f32⟩
  | .hbm, ⟨44, _⟩ => ⟨S128x3x224x224, .f32⟩
  | .hbm, ⟨45, _⟩ => ⟨S128x3x224x224, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_cst : Ref sig .tc := ⟨.hbm, 43, rfl⟩
abbrev main_call1_v15 : Ref sig .tc := ⟨.hbm, 44, rfl⟩
abbrev main_v4 : Ref sig .tc := ⟨.hbm, 45, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S128_d1 : S128x1.ReducesTo [1] S128
  h_S_ : 0 < S_.numel
  bcast_S128_S128x3x224x224_0 : S128.BroadcastsInDim S128x3x224x224 (![0] : Fin 1 → Fin S128x3x224x224.rank)
  bcast_S_S128x3x224x224 : S_.BroadcastsInDim S128x3x224x224 (![] : Fin 0 → Fin S128x3x224x224.rank)
  gather_S256x3x224x224_S128x1_S128x3x224x224_123_0_n_n_0_1_13224224_wf : GatherDims.WF S256x3x224x224 S128x1 S128x3x224x224 [1, 2, 3] [0] [] [0] [] 1 ![1, 3, 224, 224]

variable [Facts₀]

def gather_S256x3x224x224_S128x1_S128x3x224x224_123_0_n_n_0_1_13224224 : GatherDims S256x3x224x224 S128x1 S128x3x224x224 where
  offsetDims := [1, 2, 3]
  collapsedSliceDims := [0]
  operandBatchingDims := []
  startIndicesBatchingDims := []
  startIndexMap := [0]
  indexVectorDim := 1
  sliceSizes := ![1, 3, 224, 224]
  wf := gather_S256x3x224x224_S128x1_S128x3x224x224_123_0_n_n_0_1_13224224_wf

class Facts : Prop extends Facts₀ where

variable [Facts]
-- ==== Proof.Words.lean ====
/-
  The frame an output lane reads, as 32-bit words.

  Output frame `l` (of 128) reads input frame `⌊255·l / 127⌋` (of 256).  Both programs compute that quotient
  on 32-bit words as the quotient rounded toward zero, less one where the signs of dividend and divisor
  differ and the remainder is not zero; the reference then adds 256 to a negative result and tests the
  outcome against the range `[0, 255]`.  For the 128 lanes the dividend `255·l` is at most `32385`, far from
  any wrap, so each chain is decided lane by lane: the quotient is exact, never negative, and in range.
-/
import Idealize.ShloMosaic.PureOps
import Idealize.ShloMosaic.Lib.WordArith

namespace Cert.Resample

open Idealize.ShloMosaic

/-- The input frame that output frame `l` reads. -/
def sel (l : ℕ) : ℕ := l * 255 / 127

theorem sel_lt {l : ℕ} (h : l < 128) : sel l < 256 := by unfold sel; omega

/-- The kernel's floor quotient of `255·a` by `127`, on the vector unit, from the lane's word `a`. -/
def kernelWord (a : BitVec 32) : BitVec 32 :=
  Scalar.select
    (IntOp.andi
      (IntOp.cmpi .ne
        (IntOp.subi ((IntOp.cmpi .sgt (IntOp.muli a 255#32) 0#32).setWidth 32)
          ((IntOp.cmpi .slt (IntOp.muli a 255#32) 0#32).setWidth 32))
        (Scalar.subi (Scalar.extui (Scalar.cmpi .sgt 127#32 0#32)) (Scalar.extui (Scalar.cmpi .slt 127#32 0#32))))
      (IntOp.cmpi .ne (IntOp.remsi .vector (IntOp.muli a 255#32) 127#32) 0#32))
    (IntOp.subi (IntOp.divsi .vector (IntOp.muli a 255#32) 127#32) 1#32)
    (IntOp.divsi .vector (IntOp.muli a 255#32) 127#32)

/-- On every lane the kernel's word is the exact quotient. -/
theorem kernelWord_eq : ∀ l : Fin 128, kernelWord (BitVec.ofNat 32 l.val) = BitVec.ofNat 32 (sel l.val) := by
  decide +kernel

/-- The sign of a word as the host computes it: `0`, `-1` or `1`. -/
def signWord (x : BitVec 32) : BitVec 32 := if x = 0 then 0 else if x.msb then -1 else 1

/-- The reference's floor quotient of `255·a` by `127`, on the host, from the lane's word `a`. -/
def hostWord (a : BitVec 32) : BitVec 32 :=
  Scalar.select
    (IntOp.andi
      (IntOp.cmpi .ne (signWord (IntOp.muli a 255#32)) (signWord 127#32))
      (IntOp.cmpi .ne (IntOp.remsi .host (IntOp.muli a 255#32) 127#32) 0#32))
    (IntOp.subi (IntOp.divsi .host (IntOp.muli a 255#32) 127#32) 1#32)
    (IntOp.divsi .host (IntOp.muli a 255#32) 127#32)

/-- The reference's start index: a negative quotient counted from the end of the 256 frames. -/
def startWord (a : BitVec 32) : BitVec 32 :=
  Scalar.select (IntOp.cmpi .slt (hostWord a) 0#32) (IntOp.addi (hostWord a) 256#32) (hostWord a)

/-- On every lane the reference's start index is the exact quotient, -/
theorem startWord_eq : ∀ l : Fin 128, startWord (BitVec.ofNat 32 l.val) = BitVec.ofNat 32 (sel l.val) := by
  decide +kernel

/-- and it passes the reference's range test `0 ≤ · ≤ 255`. -/
theorem startWord_inRange : ∀ l : Fin 128,
    IntOp.andi (IntOp.cmpi .sge (startWord (BitVec.ofNat 32 l.val)) 0#32)
      (IntOp.cmpi .sle (startWord (BitVec.ofNat 32 l.val)) 255#32) = 1#1 := by
  decide +kernel

/-- Read as a signed number and clamped into `[0, 255]`, as a gather clamps its start, the word of an in-range
    frame number is that number. -/
theorem clamp_ofNat {s : ℕ} (hs : s < 256) : min (BitVec.ofNat 32 s).toInt.toNat (256 - 1) = s := by
  rw [WordArith.toInt_ofNat_small s (by omega)]
  simp only [Int.toNat_natCast]
  omega

/-- Two frame numbers below `2 ^ 32` compare as their words do: the kernel's selection entry, the comparison bit
    widened to a word and read as a signed integer, is `1` where they agree and `0` elsewhere. -/
theorem onehot_toInt (q s : ℕ) (hq : q < 2 ^ 32) (hs : s < 2 ^ 32) :
    ((IntOp.cmpi .eq (BitVec.ofNat 32 q) (BitVec.ofNat 32 s)).setWidth 32).toInt = if q = s then 1 else 0 := by
  by_cases h : q = s
  · subst h; rw [if_pos rfl]; simp [IntOp.cmpi]
  · rw [if_neg h]
    have hne : (BitVec.ofNat 32 q == BitVec.ofNat 32 s) = false := by
      rw [beq_eq_false_iff_ne]
      intro e
      have e' := congrArg BitVec.toNat e
      rw [BitVec.toNat_ofNat, BitVec.toNat_ofNat, Nat.mod_eq_of_lt hq, Nat.mod_eq_of_lt hs] at e'
      exact h e'
    simp [IntOp.cmpi, hne]

end Cert.Resample
-- ==== Proof.Spec.lean ====
/-
  Regular frame resampling, as one function of the input, and the two laws that read it off the programs.

  The input is 256 frames of shape 3 × 224 × 224; the result keeps 128 of them: output frame `l` is input
  frame `⌊255·l / 127⌋`.  The kernel obtains a frame as a row of a matrix product with a selection matrix of
  zeros and ones; over the extended reals a sum of products with one factor `1` and all others `0` is the
  selected term itself, for every value of the terms, since a product with zero is zero there.  The reference
  obtains it as a gather along the frame axis; at an in-range start index a gather that keeps the three
  trailing axes whole reads the operand at that frame and the same trailing coordinates.
-/
import proofs.«171550_g5634997093011_cont_9to1c4b_178_18_alg».proof.Proof.Words
import Idealize.ShloMosaic.Lib.ValueIdx
import Idealize.ShloMosaic.PureOps.Ideal.Laws

noncomputable section

open scoped BigOperators

namespace Cert.Resample

open Idealize.ShloMosaic Idealize.ShloMosaic.ValueIdx

/-- The input frame output frame `l` reads, as a frame number below 256. -/
def selFin (l : Fin 128) : Fin 256 := ⟨sel l.val, sel_lt l.isLt⟩

/-- The resampled frames: entry `(l, c, h, w)` is the input's entry `(⌊255·l / 127⌋, c, h, w)`. -/
def resample (x : (⟨4, ![256, 3, 224, 224]⟩ : Shape).Idx → EReal) : (⟨4, ![128, 3, 224, 224]⟩ : Shape).Idx → EReal :=
  fun i => x (ix4 (selFin ⟨(i 0).val, (i 0).isLt⟩) (⟨(i 1).val, (i 1).isLt⟩ : Fin 3) (⟨(i 2).val, (i 2).isLt⟩ : Fin 224)
    (⟨(i 3).val, (i 3).isLt⟩ : Fin 224))

theorem resample_apply (x : (⟨4, ![256, 3, 224, 224]⟩ : Shape).Idx → EReal) (l : Fin 128) (c : Fin 3) (h w : Fin 224) :
    resample x (ix4 l c h w) = x (ix4 (selFin l) c h w) := rfl

/-- A sum of products against a row of zeros with a single one is the term at the one: over the extended
    reals too, where every product with zero is zero. -/
theorem sum_mul_onehot {n : ℕ} (f : Fin n → EReal) (k : Fin n) :
    ∑ q : Fin n, f q * (((if q.val = k.val then (1 : ℤ) else 0 : ℤ) : ℝ) : EReal) = f k := by
  rw [Finset.sum_eq_single k]
  · simp
  · intro b _ hb
    have hne : b.val ≠ k.val := fun e => hb (Fin.ext e)
    simp [hne]
  · intro h; exact absurd (Finset.mem_univ k) h

end Cert.Resample

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.KernelPayload.lean ====
/-
  The kernel body's product, read at an entry.

  The body multiplies its 7168 × 256 block of the frame-minor view by the 256 × 128 selection matrix whose
  entry `(q, l)` is `1` where `q` is the floor quotient `⌊255·l / 127⌋` and `0` elsewhere, into a zero
  accumulator.  Entry `(r, l)` of the product is therefore the sum over `q` of the block's `(r, q)` times
  that entry, which is the block's entry `(r, ⌊255·l / 127⌋)`.
-/
import proofs.«171550_g5634997093011_cont_9to1c4b_178_18_alg».proof.Proof.Gen.KernelIdeal.Skeleton
import proofs.«171550_g5634997093011_cont_9to1c4b_178_18_alg».proof.Proof.Spec
import proofs.«171550_g5634997093011_cont_9to1c4b_178_18_alg».proof.Proof.LibDense
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.Resample

/-- The body's stored value at row `r` and lane `l` is the loaded block's entry at row `r` and frame
    `⌊255·l / 127⌋`. -/
theorem pay_apply (x0 : Vec Ideal S7168x256 .f32) (r : Fin 7168) (l : Fin 128) :
    k0_pay1 (F := Ideal) x0 (ix2 r l) = x0 (ix2 r (selFin l)) := by
  unfold k0_pay1
  refine (Cert.LibDense.matmul_zero_apply dot_S7168x256_S256x128_S7168x128_1_0_0_1_n_n rfl rfl
    (fun _ _ => rfl) (fun _ _ => rfl) (fun _ _ => rfl) (fun _ _ => rfl) _ _ _ r l).trans ?_
  refine (Finset.sum_congr rfl fun q _ => ?_).trans (sum_mul_onehot (fun q => x0 (ix2 r q)) (selFin l))
  rw [shapeCast_self]
  refine congrArg (x0 (ix2 r q) * ·) ?_
  have e0 : iota .tc S256x128 32 [0] iota_S256x128_d0_w32 (ix2 q l) = BitVec.ofNat 32 q.val :=
    iota_single_apply ..
  have e1 : iota .tc S256x128 32 [1] iota_S256x128_d1_w32 (ix2 q l) = BitVec.ofNat 32 l.val :=
    iota_single_apply ..
  show ((((IntOp.cmpi .eq (iota .tc S256x128 32 [0] iota_S256x128_d0_w32 (ix2 q l))
      (kernelWord (iota .tc S256x128 32 [1] iota_S256x128_d1_w32 (ix2 q l)))).setWidth 32).toInt : ℝ) : EReal) = _
  rw [e0, e1, kernelWord_eq l, onehot_toInt _ _ (by omega) (by have := sel_lt l.isLt; omega)]
  rfl

/-- The same at any index of the stored block, its coordinates read off the index. -/
theorem pay_apply' (x0 : Vec Ideal S7168x256 .f32) (j : S7168x128.Idx) :
    k0_pay1 (F := Ideal) x0 j = x0 (ix2 (⟨(j 0).val, (j 0).isLt⟩ : Fin 7168) (selFin ⟨(j 1).val, (j 1).isLt⟩)) := by
  obtain ⟨r, l, rfl⟩ : ∃ (r : Fin 7168) (l : Fin 128), j = ix2 r l := ⟨j 0, j 1, eq_ix2 j⟩
  exact pay_apply x0 r l

end Cert.KernelIdeal.Payload

end
-- ==== Proof.Layout.lean ====
/-
  The frame-minor view and its inverse, read at an index.

  The kernel's program moves the frame axis of the 256 × 3 × 224 × 224 input last and flattens the three leading
  axes, giving a 150528 × 256 matrix whose row `(c·224 + h)·224 + w` holds pixel `(c, h, w)` of every frame;
  after the product it unflattens the 150528 × 128 result and moves the frame axis back first.  Both are
  relabelings: an entry of the view is one entry of the array, by row-major position and by the permutation.
-/
import Idealize.ShloMosaic.Lib.Pipeline.Value
import Idealize.ShloMosaic.Lib.ValueIdx

namespace Cert.Resample

open Idealize.ShloMosaic Idealize.ShloMosaic.ValueIdx

variable {α : Type}

/-- The row of the flattened view that holds pixel `(c, h, w)`. -/
def pixelRow (c : Fin 3) (h w : Fin 224) : Fin 150528 :=
  ⟨(c.val * 224 + h.val) * 224 + w.val, by have := c.isLt; have := h.isLt; have := w.isLt; omega⟩

/-- The frame-minor view at row `(c, h, w)` and column `q` is frame `q`'s pixel `(c, h, w)`. -/
theorem frameMinor_apply (x : (⟨4, ![256, 3, 224, 224]⟩ : Shape).Idx → α)
    (ht : (⟨4, ![256, 3, 224, 224]⟩ : Shape).Transposes [1, 2, 3, 0] ⟨4, ![3, 224, 224, 256]⟩)
    (hc : (⟨4, ![3, 224, 224, 256]⟩ : Shape).ShapeCasts ⟨2, ![150528, 256]⟩)
    (c : Fin 3) (h w : Fin 224) (q : Fin 256) :
    shapeCast ⟨2, ![150528, 256]⟩ (transpose ⟨4, ![3, 224, 224, 256]⟩ [1, 2, 3, 0] x ht) hc (ix2 (pixelRow c h w) q)
      = x (ix4 q c h w) := by
  refine (shapeCast_apply _ hc (ix2 (pixelRow c h w) q) (ix4 c h w q) ?_).trans ?_
  · rw [Shape.rowMajor_val_four, Shape.rowMajor_val_two]
    show ((c.val * 224 + h.val) * 224 + w.val) * 256 + q.val = ((c.val * 224 + h.val) * 224 + w.val) * 256 + q.val
    rfl
  · refine transpose_apply [1, 2, 3, 0] x ht (ix4 c h w q) (ix4 q c h w) fun b => ?_
    match b with
    | ⟨0, _⟩ => rfl
    | ⟨1, _⟩ => rfl
    | ⟨2, _⟩ => rfl
    | ⟨3, _⟩ => rfl

/-- The result's entry `(l, c, h, w)` is the product's entry at row `(c, h, w)` and column `l`. -/
theorem frameMajor_apply (y : (⟨2, ![150528, 128]⟩ : Shape).Idx → α)
    (hc : (⟨2, ![150528, 128]⟩ : Shape).ShapeCasts ⟨4, ![3, 224, 224, 128]⟩)
    (ht : (⟨4, ![3, 224, 224, 128]⟩ : Shape).Transposes [3, 0, 1, 2] ⟨4, ![128, 3, 224, 224]⟩)
    (l : Fin 128) (c : Fin 3) (h w : Fin 224) :
    transpose ⟨4, ![128, 3, 224, 224]⟩ [3, 0, 1, 2] (shapeCast ⟨4, ![3, 224, 224, 128]⟩ y hc) ht (ix4 l c h w)
      = y (ix2 (pixelRow c h w) l) := by
  refine (transpose_apply [3, 0, 1, 2] _ ht (ix4 l c h w) (ix4 c h w l) fun b => ?_).trans ?_
  · match b with
    | ⟨0, _⟩ => rfl
    | ⟨1, _⟩ => rfl
    | ⟨2, _⟩ => rfl
    | ⟨3, _⟩ => rfl
  · refine shapeCast_apply y hc (ix4 c h w l) (ix2 (pixelRow c h w) l) ?_
    rw [Shape.rowMajor_val_four, Shape.rowMajor_val_two]
    show ((c.val * 224 + h.val) * 224 + w.val) * 128 + l.val = ((c.val * 224 + h.val) * 224 + w.val) * 128 + l.val
    rfl

end Cert.Resample
-- ==== Proof.KernelValue.lean ====
/-
  What the kernel's program computes: the resampled frames.

  The region's 21 grid points each take a block of 7168 rows of the frame-minor view and write back the same
  rows of the product with the selection matrix: row `p`, lane `l` of the product array is row `p`, column
  `⌊255·l / 127⌋` of the view.  The blocks tile the 150528 rows, so after the region the whole product array is
  that function of the view.  The host lines before the region build the view from the argument and the host
  lines after it relabel the product array back; composed, the result's entry `(l, c, h, w)` is the argument's
  entry `(⌊255·l / 127⌋, c, h, w)`.
-/
import proofs.«171550_g5634997093011_cont_9to1c4b_178_18_alg».proof.Proof.Gen.KernelIdeal.Frame
import proofs.«171550_g5634997093011_cont_9to1c4b_178_18_alg».proof.Proof.KernelPayload
import proofs.«171550_g5634997093011_cont_9to1c4b_178_18_alg».proof.Proof.Layout
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.Resample

variable (m : (ℓ : Loc nD τ sig) → Buf (Elt Ideal) ℓ) (ρ : Dev nD → PrngReg)

theorem zero_offsets : (![0, 0] : Fin 2 → Nat) = fun _ => 0 := funext fun a => by fin_cases a <;> rfl

/-- The product array as a function of the frame-minor view: row `p`, lane `l` reads row `p`, column `⌊255·l / 127⌋`. -/
def pick (xt : S150528x256.Idx → EReal) : S150528x128.Idx → EReal :=
  fun i => xt (ix2 (⟨(i 0).val, (i 0).isLt⟩ : Fin 150528) (selFin ⟨(i 1).val, (i 1).isLt⟩))

theorem pick_apply (xt : S150528x256.Idx → EReal) (p : Fin 150528) (l : Fin 128) :
    pick xt (ix2 p l) = xt (ix2 p (selFin l)) := rfl

/-- The two windows move together down the rows, neither moves along the columns, and there are 21 row blocks. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 20 :=
  (by decide +kernel : ∀ t : Fin grid0.N, _)

/-- Every row block is some point's. -/
theorem idx_onto : ∀ q0 : Fin 21, ∃ t : Fin cfg0.N, win0_1.index t = ![q0.val, 0] :=
  (by decide +kernel : ∀ q0 : Fin 21, ∃ t : Fin grid0.N, win0_1.index t = ![q0.val, 0])

/-- What point `t` writes back is its block of `pick` of the view as the region finds it. -/
theorem flushed_eq (c : Dev nD) (t : Fin cfg0.N) :
    (dats m 0 c).flushed 1 t = ((cfg0.win 1).blk t).view.read (Elt Ideal) (pick (V m c main_v1)) := by
  show (cfg0.win 1).cut (grid0.coords t) ((dats m 0 c).after 1 t) = _
  rw [after0_1]
  unfold out0_1
  rw [View.canon_unit_zero zero_offsets]
  simp only [View.ld_unit_zero (S := S7168x256) zero_offsets]
  obtain ⟨e0, e1, e2, -⟩ := idx_facts t
  funext j
  show k0_pay1 (iblk m c 0 t) j = pick (V m c main_v1) (((cfg0.win 1).blk t).view.emb j)
  refine (Payload.pay_apply' (iblk m c 0 t) j).trans ?_
  show V m c main_v1 (((cfg0.win 0).blk t).view.emb (ix2 (⟨(j 0).val, (j 0).isLt⟩ : Fin 7168) (selFin ⟨(j 1).val, (j 1).isLt⟩))) = _
  unfold pick
  refine congrArg (V m c main_v1) (funext fun a => Fin.ext ?_)
  match a with
  | ⟨0, _⟩ =>
    show win0_0.index t (0 : Fin 2) * 7168 + 1 * (j 0).val = win0_1.index t (0 : Fin 2) * 7168 + 1 * (j 0).val
    rw [e0]
  | ⟨1, _⟩ =>
    show win0_0.index t (1 : Fin 2) * 256 + 1 * sel (j 1).val = sel (win0_1.index t (1 : Fin 2) * 128 + 1 * (j 1).val)
    rw [e1, e2]
    simp only [Nat.zero_mul, Nat.zero_add, Nat.one_mul]

/-- An index of the product array is in point `t`'s block iff each coordinate is in the block's range on its axis. -/
theorem mem_blk (t : Fin cfg0.N) (i : S150528x128.Idx) :
    i ∈ ((cfg0.win 1).blk t).view.set ↔ ∀ a : Fin 2, win0_1.index t a * S7168x128.size a ≤ (i a).val ∧ (i a).val < win0_1.index t a * S7168x128.size a + S7168x128.size a := by
  show i ∈ ((View.whole main_v2).slice (win0_1.rect t)).set ↔ _
  rw [View.set_slice_whole, Rect.mem_set_unit]
  exact Iff.rfl

/-- The blocks cover the array: row `p` lies in row block `p / 7168`. -/
theorem cover (i : S150528x128.Idx) :
    ∃ t : Fin cfg0.N, (cfg0.win 1).flush t = true ∧ i ∈ ((cfg0.win 1).blk t).view.set := by
  have hi0 : (i 0).val < 150528 := (i 0).isLt
  have hi1 : (i 1).val < 128 := (i 1).isLt
  obtain ⟨t, ht⟩ := idx_onto ⟨(i 0).val / 7168, by omega⟩
  have q0 : win0_1.index t (0 : Fin 2) = (i 0).val / 7168 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 7168 ≤ (i 0).val ∧ (i 0).val < win0_1.index t (0 : Fin 2) * 7168 + 7168; omega
  | ⟨1, _⟩ => show win0_1.index t (1 : Fin 2) * 128 ≤ (i 1).val ∧ (i 1).val < win0_1.index t (1 : Fin 2) * 128 + 128; omega

/-- The product array after the region. -/
theorem final (c : Dev nD) : (dats m 0 c).arrAt 1 cfg0.N = pick (V m c main_v1) :=
  (dats m 0 c).arrAt_eq_of_cover 1 (pick (V m c main_v1)) (fun t _ => flushed_eq m c t) cover

/-- The view the region finds: the host lines before it move the argument's frame axis last and flatten the rest. -/
theorem entry_view (c : Dev nD) :
    (V m c main_v1 : S150528x256.Idx → EReal)
      = shapeCast S150528x256 (transpose S3x224x224x256 [1, 2, 3, 0] (m ((c : Thread nD τ).loc main_arg0))
          transposes_S256x3x224x224_S3x224x224x256_1_2_3_0) shapeCasts_S3x224x224x256_S150528x256 := by
  show StableHlo.after hostOps0 (fun b => m (c, b)) (Proc.devRef .tc main_v1) = _
  after_results
  rfl

/-- The result buffer after the host lines that follow the region: the product array unflattened, its frame axis first. -/
theorem tail_eq (c : Dev nD) :
    (Pipeline.afterTail₀ cfgs (dats m) 0 (V0 m) [hostOps1] c main_v4 : S128x3x224x224.Idx → EReal)
      = transpose S128x3x224x224 [3, 0, 1, 2] (shapeCast S3x224x224x128 ((dats m 0 c).arrAt 1 cfg0.N)
          shapeCasts_S150528x128_S3x224x224x128) transposes_S3x224x224x128_S128x3x224x224_3_0_1_2 := by
  unfold Pipeline.afterTail₀
  show StableHlo.after hostOps1 _ (Proc.devRef .tc main_v4) = _
  after_results
  rw [Pipeline.withArrays_arr spec0 launch0.win.arr_inj c _ _ 1]
  rfl

/-- The result as a function of the argument: the resampled frames. -/
theorem result_eq (c : Dev nD) :
    (Pipeline.afterTail₀ cfgs (dats m) 0 (V0 m) [hostOps1] c main_v4 : S128x3x224x224.Idx → EReal)
      = resample (m ((c : Thread nD τ).loc main_arg0)) := by
  rw [tail_eq, final, entry_view]
  funext i
  obtain ⟨l, ch, h, w, rfl⟩ : ∃ (l : Fin 128) (ch : Fin 3) (h w : Fin 224), i = ix4 l ch h w :=
    ⟨i 0, i 1, i 2, i 3, eq_ix4 i⟩
  rw [resample_apply]
  refine (frameMajor_apply _ _ _ l ch h w).trans ?_
  rw [pick_apply]
  exact frameMinor_apply _ _ _ ch h w (selFin l)

/-- THE KERNEL'S RUN: every weakly fair execution terminates with the result buffer at the resampled frames of the
    argument, and the argument unchanged. -/
theorem run : θ_run defs (onTc (τ := τ) (main (F := Ideal))) ⟨m, fun _ => 0, ρ⟩ fun r => ∀ c : Dev nD,
      r.2.mem ((c : Thread nD τ).loc main_v4) = resample (m ((c : Thread nD τ).loc main_arg0))
      ∧ r.2.mem ((c : Thread nD τ).loc main_arg0) = m ((c : Thread nD τ).loc main_arg0) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c)⟩)
    (run_main m ρ)

end Cert.KernelIdeal.KValue

end
-- ==== Proof.RefRun.lean ====
/-
  The reference's run, read back.

  The reference's entry function calls three functions that the compiler inlines: the floor division, the
  frame lookup, and the select both of them end in.  Inlined, the program is one straight line of forty-five
  host operations, each writing a buffer of its own; its run therefore ends with every buffer at the
  composition of the operations over the launch contents.
-/
import proofs.«171550_g5634997093011_cont_9to1c4b_178_18_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- The entry function's operations with the three called functions' bodies in place of the calls, in order:
    the lane numbers times 255; the floor division by 127 (seventeen operations); the lookup (twenty-three):
    the start index counted from the end when negative, its range test, the gather, and the select between the
    gathered frames and the fill value. -/
abbrev ops : List (HloOp τ sig (Elt F)) :=
  [ nullary main_v0 (iotaInDim S128 32 0),
    nullary main_c (constantI S_ 32 255#32),
    unary main_c main_v1 (broadcastInDim S128 ![] bcast_S_S128 : (⟨S_, .i32⟩ : BufTy).Contents (Elt F) → (⟨S128, .i32⟩ : BufTy).Contents (Elt F)),
    binary main_v0 main_v1 main_v2 (muli : (⟨S128, .i32⟩ : BufTy).Contents (Elt F) → (⟨S128, .i32⟩ : BufTy).Contents (Elt F) → (⟨S128, .i32⟩ : BufTy).Contents (Elt F)),
    nullary main_c_0 (constantI S_ 32 127#32),
    TRef.unary (.of main_c_0) main_call0.v0 id,
    TRef.unary main_call0.v0 main_call0.v1 (broadcastInDim S128 ![] bcast_S_S128),
    TRef.binary (.of main_v2) main_call0.v1 main_call0.v2 Host.divsi,
    TRef.unary (.of main_v2) main_call0.v3 signi,
    TRef.unary main_call0.v0 main_call0.v4 signi,
    TRef.unary main_call0.v4 main_call0.v5 (broadcastInDim S128 ![] bcast_S_S128),
    TRef.binary main_call0.v3 main_call0.v5 main_call0.v6 (cmpi .ne),
    TRef.unary main_call0.v0 main_call0.v7 (broadcastInDim S128 ![] bcast_S_S128),
    TRef.binary (.of main_v2) main_call0.v7 main_call0.v8 Host.remsi,
    TRef.nullary main_call0.c (constantI S_ 32 0#32),
    TRef.unary main_call0.c main_call0.v9 (broadcastInDim S128 ![] bcast_S_S128),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S128 ![] bcast_S_S128),
    TRef.binary main_call0.v2 main_call0.v12 main_call0.v13 subi,
    TRef.ternary main_call0.v11 main_call0.v13 main_call0.v2 main_call0.call0.v0 select,
    TRef.nullary main_call1.c (constantI S_ 32 0#32),
    TRef.unary main_call1.c main_call1.v0 (broadcastInDim S128 ![] bcast_S_S128),
    TRef.binary (.of main_v3) main_call1.v0 main_call1.v1 (cmpi .slt),
    TRef.nullary main_call1.c_0 (constantI S_ 32 256#32),
    TRef.unary main_call1.c_0 main_call1.v2 (broadcastInDim S128 ![] bcast_S_S128),
    TRef.binary (.of main_v3) main_call1.v2 main_call1.v3 addi,
    TRef.ternary main_call1.v1 main_call1.v3 (.of main_v3) main_call1.call0.v0 select,
    TRef.unary main_call1.call0.v0 main_call1.v5 (broadcastInDim S128x1 ![0] bcast_S128_S128x1_0),
    TRef.nullary main_call1.c_1 (constantI S1 32 255#32),
    TRef.nullary main_call1.c_2 (constantI S_ 32 0#32),
    TRef.unary main_call1.c_2 main_call1.v6 (broadcastInDim S128x1 ![] bcast_S_S128x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S128x1 ![0, 1] bcast_S1x1_S128x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S128x1_S128_d1 h_S_),
    TRef.binary (.of main_arg0) main_call1.v5 main_call1.v13 (fun x i => Host.gather gather_S256x3x224x224_S128x1_S128x3x224x224_123_0_n_n_0_1_13224224 x i),
    TRef.unary main_call1.v12 main_call1.v14 (broadcastInDim S128x3x224x224 ![0] bcast_S128_S128x3x224x224_0),
    TRef.nullary main_call1.cst (constant S_ .f32 0x7FC00000#32),
    TRef.unary main_call1.cst main_call1.v15 (broadcastInDim S128x3x224x224 ![] bcast_S_S128x3x224x224),
    TRef.ternary main_call1.v14 main_call1.v13 main_call1.v15 main_call1.v16 select ]

set_option maxRecDepth 2048 in
/-- The entry function is that straight line: the called functions' definitions unfolded at their calls, both sides
    are one chain of operations once the sequencing is re-associated. -/
theorem main_eq (c : Dev nD) : main (F := F) c = seq ops := by
  simp only [main, fn_floor_divide.body, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of the reference terminates, and every final state
    has each buffer at the fold of the forty-five operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefValue.lean ====
/-
  What the reference computes: the resampled frames.

  Read off its run, the reference's result is a select, lane by lane, between the gathered frames and a fill
  value, on a test that the lane's start index lies in `[0, 255]`.  The start index of lane `l` is the floor
  quotient `⌊255·l / 127⌋` computed on 32-bit words; on each of the 128 lanes it is exact and in range, so the
  test passes everywhere, the gather's clamp changes nothing, and the result at `(l, c, h, w)` is the input at
  `(⌊255·l / 127⌋, c, h, w)`.
-/
import proofs.«171550_g5634997093011_cont_9to1c4b_178_18_alg».proof.Proof.RefRun
import proofs.«171550_g5634997093011_cont_9to1c4b_178_18_alg».proof.Proof.Spec
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx Cert.Resample

/-! ## The stages of the reference, as functions -/

/-- The lane numbers times 255. -/
def scaled : IVec S128 32 :=
  muli (iotaInDim S128 32 0) (broadcastInDim S128 ![] bcast_S_S128 (constantI S_ 32 255#32))

/-- The divisor 127 on every lane. -/
def divisor : IVec S128 32 := broadcastInDim S128 ![] bcast_S_S128 (id (constantI S_ 32 127#32))

/-- The floor quotients: the quotient toward zero, less one where the signs differ and the remainder is not zero. -/
def quotWords : IVec S128 32 :=
  select
    (andi (cmpi .ne (signi scaled) (broadcastInDim S128 ![] bcast_S_S128 (signi (id (constantI S_ 32 127#32)))))
      (cmpi .ne (Host.remsi scaled divisor) (broadcastInDim S128 ![] bcast_S_S128 (constantI S_ 32 0#32))))
    (subi (Host.divsi scaled divisor) (broadcastInDim S128 ![] bcast_S_S128 (constantI S_ 32 1#32)))
    (Host.divsi scaled divisor)

/-- The start indices, a negative one counted from the end, as a column. -/
def starts : IVec S128x1 32 :=
  broadcastInDim S128x1 ![0] bcast_S128_S128x1_0
    (select (cmpi .slt quotWords (broadcastInDim S128 ![] bcast_S_S128 (constantI S_ 32 0#32)))
      (addi quotWords (broadcastInDim S128 ![] bcast_S_S128 (constantI S_ 32 256#32))) quotWords)

/-- The range test of each start index. -/
def inRangeBits : IVec S128x1 1 :=
  andi (cmpi .sge starts (broadcastInDim S128x1 ![] bcast_S_S128x1 (constantI S_ 32 0#32)))
    (cmpi .sle starts (broadcastInDim S128x1 ![0, 1] bcast_S1x1_S128x1_0_1
      (broadcastInDim S1x1 ![1] bcast_S1_S1x1_1 (constantI S1 32 255#32))))

/-- The reference's result as a function of its argument. -/
def refOut (x : (⟨S256x3x224x224, .f32⟩ : BufTy).Contents (Elt Ideal)) : (⟨S128x3x224x224, .f32⟩ : BufTy).Contents (Elt Ideal) :=
  select
    (broadcastInDim S128x3x224x224 ![0] bcast_S128_S128x3x224x224_0
      (Host.reduce IntOp.andi inRangeBits (constantI S_ 1 1#1) reducesTo_S128x1_S128_d1 h_S_))
    (Host.gather gather_S256x3x224x224_S128x1_S128x3x224x224_123_0_n_n_0_1_13224224 x starts)
    (broadcastInDim S128x3x224x224 ![] bcast_S_S128x3x224x224 (constant (F := Ideal) S_ .f32 0x7FC00000#32))

set_option maxRecDepth 8192 in
set_option maxHeartbeats 1000000 in
/-- The fold of the reference's operations at the result buffer is that function of the argument's contents: each
    operation's result at its own buffer is its function of its operands' buffers, and no other operation writes it. -/
theorem out_eq (V : Valuation τ sig (Elt Ideal)) :
    after (RefRun.ops (F := Ideal)) V (main_v4 : DevRef τ sig) = refOut (V (main_arg0 : DevRef τ sig)) := by
  after_results_simp
  rfl

/-- No operation writes the argument. -/
theorem arg0_eq (V : Valuation τ sig (Elt Ideal)) :
    after (RefRun.ops (F := Ideal)) V (main_arg0 : DevRef τ sig) = V (main_arg0 : DevRef τ sig) := by
  simp only [after_cons, after_nil]
  rfl

/-! ## A gather along the frame axis, read at an index -/

/-- The reference's gather: start indices along the frame axis, the three trailing axes kept whole. -/
abbrev G := gather_S256x3x224x224_S128x1_S128x3x224x224_123_0_n_n_0_1_13224224

/-- On a kept axis the gather's operand coordinate is the result's coordinate on the matching offset axis. -/
theorem kept_coord {w : ℕ} (j : S128x3x224x224.Idx) (idx : IVec S128x1 w) (a : Fin 4) (b : Fin 4)
    (hns : a ∉ G.startIndexMap) (hk : a ∈ G.sKept)
    (hb : G.offsetDims[G.sKept.idxOf a]'(by rw [G.offset_length]; exact List.idxOf_lt_length_iff.2 hk) = b) :
    G.start j idx a + G.batchCoord j a + G.offCoord j a = (j b).val := by
  have hs : G.start j idx a = 0 := by unfold GatherDims.start; exact dif_neg hns
  have hbt : G.batchCoord j a = 0 := GatherDims.batchCoord_eq_zero _ _ _ List.not_mem_nil
  have ho : G.offCoord j a = (j b).val := by
    unfold GatherDims.offCoord
    rw [dif_pos hk, hb]
  rw [hs, hbt, ho]; omega

/-- The gather read at `(l, c, h, w)`: the operand's frame at lane `l`'s start index, read signed and clamped into
    `[0, 255]`, at the same `(c, h, w)`. -/
theorem gather_frames_apply {α : Type} (x : S256x3x224x224.Idx → α) (idx : IVec S128x1 32)
    (l : Fin 128) (c : Fin 3) (h w : Fin 224) :
    Host.gather G x idx (ix4 l c h w)
      = x (ix4 (⟨min (idx (ix2 l (0 : Fin 1))).toInt.toNat (256 - 1), by omega⟩ : Fin 256) c h w) := by
  have h0 : G.start (ix4 l c h w) idx (0 : Fin 4) + G.batchCoord (ix4 l c h w) (0 : Fin 4) + G.offCoord (ix4 l c h w) (0 : Fin 4)
      = min (idx (ix2 l (0 : Fin 1))).toInt.toNat (256 - 1) := by
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 4) ∈ G.startIndexMap from List.mem_singleton.mpr rfl)]
    have hsi : G.siIdx (ix4 l c h w) ⟨List.idxOf (0 : Fin 4) G.startIndexMap,
        List.idxOf_lt_length_iff.2 (List.mem_singleton.mpr rfl)⟩ = ix2 l (0 : Fin 1) := by
      funext b; refine Fin.ext ?_
      match b with
      | ⟨0, _⟩ => rfl
      | ⟨1, _⟩ => rfl
    rw [hsi]
    rfl
  have h1 := kept_coord (ix4 l c h w) idx (1 : Fin 4) (1 : Fin 4) (by decide) (by decide) (by decide)
  have h2 := kept_coord (ix4 l c h w) idx (2 : Fin 4) (2 : Fin 4) (by decide) (by decide) (by decide)
  have h3 := kept_coord (ix4 l c h w) idx (3 : Fin 4) (3 : Fin 4) (by decide) (by decide) (by decide)
  unfold Host.gather
  refine congrArg x (funext fun a => Fin.ext ?_)
  show G.start (ix4 l c h w) idx a + G.batchCoord (ix4 l c h w) a + G.offCoord (ix4 l c h w) a = _
  match a with
  | ⟨0, _⟩ => exact h0
  | ⟨1, _⟩ => exact h1
  | ⟨2, _⟩ => exact h2
  | ⟨3, _⟩ => exact h3

/-! ## The range test passes on every lane -/

/-- A reduction by `and` from `true` of bits that are all `true` is `true`. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  unfold Host.reduce
  rw [hinit]
  generalize (List.filter (fun n => decide (h.drop (s.rowMajor.symm n) = j)) (List.finRange s.numel)) = L
  induction L with
  | nil => rfl
  | cons a L ih =>
    rw [List.foldl_cons, hx, show IntOp.andi (1#1 : BitVec 1) 1#1 = 1#1 from by decide]
    exact ih

/-- The start index of a lane is the reference's word chain at the lane's number. -/
theorem starts_apply (j : S128x1.Idx) : starts j = startWord (BitVec.ofNat 32 (j 0).val) := rfl

/-- Every start index passes the range test. -/
theorem inRangeBits_apply (j : S128x1.Idx) : inRangeBits j = 1#1 :=
  startWord_inRange ⟨(j 0).val, (j 0).isLt⟩

/-! ## The result -/

/-- The reference's result is the resampled frames. -/
theorem refOut_eq (x : (⟨S256x3x224x224, .f32⟩ : BufTy).Contents (Elt Ideal)) : refOut x = resample x := by
  funext i
  obtain ⟨l, c, h, w, rfl⟩ : ∃ (l : Fin 128) (c : Fin 3) (h w : Fin 224), i = ix4 l c h w :=
    ⟨i 0, i 1, i 2, i 3, eq_ix4 i⟩
  rw [resample_apply]
  unfold refOut
  rw [select_apply]
  have hm : broadcastInDim S128x3x224x224 ![0] bcast_S128_S128x3x224x224_0
      (Host.reduce IntOp.andi inRangeBits (constantI S_ 1 1#1) reducesTo_S128x1_S128_d1 h_S_) (ix4 l c h w) = 1#1 := by
    unfold broadcastInDim
    exact reduce_andi_of_forall _ _ _ _ rfl inRangeBits_apply _
  rw [hm, select_one]
  refine (gather_frames_apply x starts l c h w).trans (congrArg (fun q => x (ix4 q c h w)) (Fin.ext ?_))
  show min (startWord (BitVec.ofNat 32 l.val)).toInt.toNat (256 - 1) = sel l.val
  rw [startWord_eq l]
  exact clamp_ofNat (sel_lt l.isLt)

/-- THE REFERENCE'S RUN: every weakly fair execution terminates with the result buffer at the resampled frames of the
    argument, and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = resample (m ((c.tc : Thread nD τ).loc main_arg0))
      ∧ r.2.mem ((c.tc : Thread nD τ).loc main_arg0) = m ((c.tc : Thread nD τ).loc main_arg0) :=
  (θ_run defs _ _).mono (fun _ h c =>
    ⟨(h c main_v4).trans ((out_eq (launchContents m c)).trans (refOut_eq _)),
      (h c main_arg0).trans (arg0_eq (launchContents m c))⟩)
    (RefRun.run_ops m ρ)

end Cert.ReferenceIdeal.RefValue

end
-- ==== Proof.lean ====
/-
  Regular frame resampling: the kernel's program and the reference compute the same frames.

  The input is 256 frames of shape 3 × 224 × 224 and the result keeps 128 of them: output frame `l` is input
  frame `⌊255·l / 127⌋`.  The reference gathers those frames along the frame axis.  The kernel's program works on
  the frame-minor view, a 150528 × 256 matrix with one row per pixel, and multiplies it by the 256 × 128 matrix of
  zeros and ones that has its one of column `l` in row `⌊255·l / 127⌋`; it then relabels the product back.

  Over the extended reals each entry of that product is a sum with one term `x·1` and 255 terms `x·0`, which is
  the one term whatever the values are, so the product's entry at pixel `p` and lane `l` is the view's entry at
  pixel `p` and frame `⌊255·l / 127⌋`: both programs end at `Cert.Resample.resample` of the argument
  (`KernelValue.lean`, `RefValue.lean`).  The quotient is computed on 32-bit words by both programs; it is exact
  and in range on every lane (`Words.lean`), so the reference's range test passes everywhere and its fill value
  is never selected.  No rewrite separates the kernel from its idealization, so that claim is empty, and each
  frame claim is the corresponding run with the result forgotten.
-/
import proofs.«171550_g5634997093011_cont_9to1c4b_178_18_alg».proof.Defs
import proofs.«171550_g5634997093011_cont_9to1c4b_178_18_alg».proof.Proof.Gen.Kernel
import proofs.«171550_g5634997093011_cont_9to1c4b_178_18_alg».proof.Proof.Gen.Kernel.Skeleton
import proofs.«171550_g5634997093011_cont_9to1c4b_178_18_alg».proof.Proof.Gen.Kernel.Launch
import proofs.«171550_g5634997093011_cont_9to1c4b_178_18_alg».proof.Proof.Gen.Kernel.Points
import proofs.«171550_g5634997093011_cont_9to1c4b_178_18_alg».proof.Proof.Gen.Kernel.Frame
import proofs.«171550_g5634997093011_cont_9to1c4b_178_18_alg».proof.Proof.Gen.KernelIdeal
import proofs.«171550_g5634997093011_cont_9to1c4b_178_18_alg».proof.Proof.Gen.KernelIdeal.Skeleton
import proofs.«171550_g5634997093011_cont_9to1c4b_178_18_alg».proof.Proof.Gen.KernelIdeal.Launch
import proofs.«171550_g5634997093011_cont_9to1c4b_178_18_alg».proof.Proof.Gen.KernelIdeal.Points
import proofs.«171550_g5634997093011_cont_9to1c4b_178_18_alg».proof.Proof.Gen.KernelIdeal.Frame
import proofs.«171550_g5634997093011_cont_9to1c4b_178_18_alg».proof.Proof.Gen.ReferenceIdeal
import proofs.«171550_g5634997093011_cont_9to1c4b_178_18_alg».proof.Proof.Gen.Pre_finite_inputs
import proofs.«171550_g5634997093011_cont_9to1c4b_178_18_alg».proof.Proof.KernelValue
import proofs.«171550_g5634997093011_cont_9to1c4b_178_18_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed terminates without a fault and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- From memories that agree on the argument both idealized programs end with the result buffer at the resampled
    frames of that argument. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
